-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1024x256 : Shape := ⟨3, ![16, 1024, 256]⟩
abbrev S256x256 : Shape := ⟨2, ![256, 256]⟩
abbrev S256 : Shape := ⟨1, ![256]⟩
abbrev S_ : Shape := ⟨0, ![]⟩

class Facts : Prop where
  bcast_S_S16x1024x256 : S_.BroadcastsInDim S16x1024x256 (![] : Fin 0 → Fin S16x1024x256.rank)
  reducesTo_S16x1024x256_S_d0_1_2 : S16x1024x256.ReducesTo [0, 1, 2] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_arg5 : FVec F S256x256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  main_v28

def fn {F : FTy → Type} [FloatOps F] (main_arg0 : FVec F S16x1024x256 .f32) (main_arg1 : FVec F S256x256 .f32) (main_arg2 : FVec F S256x256 .f32) (main_arg3 : FVec F S256x256 .f32) (main_arg4 : FVec F S256 .f32) (main_arg5 : FVec F S256x256 .f32) : IVec S_ 1 :=
  let main_v0 : FVec F S16x1024x256 .f32 := Host.absf main_arg0
  let main_cst : FVec F S_ .f32 := constant S_ .f32 0x7F800000#32
  let main_v1 : FVec F S16x1024x256 .f32 := broadcastInDim S16x1024x256 ![] bcast_S_S16x1024x256 main_cst
  let main_v2 : IVec S16x1024x256 1 := cmpf .olt main_v0 main_v1
  let main_c : IVec S_ 1 := constantI S_ 1 1#1
  let main_v3 : IVec S_ 1 := (fun x v => Host.reduce IntOp.andi x v reducesTo_S16x1024x256_S_d0_1_2 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_v13 main_v16
-- ==== Kernel.lean ====
abbrev S16x1024x256 : Shape := ⟨3, ![16, 1024, 256]⟩
abbrev S256x256 : Shape := ⟨2, ![256, 256]⟩
abbrev S256 : Shape := ⟨1, ![256]⟩
abbrev S1x256 : Shape := ⟨2, ![1, 256]⟩
abbrev S1x1024x256 : Shape := ⟨3, ![1, 1024, 256]⟩
abbrev S1024x256 : Shape := ⟨2, ![1024, 256]⟩
abbrev S1024 : Shape := ⟨1, ![1024]⟩
abbrev S1024x1 : Shape := ⟨2, ![1024, 1]⟩
abbrev S1024x1024 : Shape := ⟨2, ![1024, 1024]⟩

abbrev nBuf : Space → Nat
  | .hbm => 16
  | .vmem => 9
  | .smem => 0
  | _ => 0

abbrev bufTy : (tb : Table) → Fin (tcTables nBuf tb) → BufTy
  | .hbm, ⟨0, _⟩ => ⟨S16x1024x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256x256, .f32⟩
  | .hbm, ⟨7, _⟩ => ⟨S256x256, .bf16⟩
  | .hbm, ⟨8, _⟩ => ⟨S256x256, .f32⟩
  | .hbm, ⟨9, _⟩ => ⟨S256x256, .bf16⟩
  | .hbm, ⟨10, _⟩ => ⟨S256x256, .f32⟩
  | .hbm, ⟨11, _⟩ => ⟨S256x256, .bf16⟩
  | .hbm, ⟨12, _⟩ => ⟨S256x256, .f32⟩
  | .hbm, ⟨13, _⟩ => ⟨S256x256, .bf16⟩
  | .hbm, ⟨14, _⟩ => ⟨S1x256, .f32⟩
  | .hbm, ⟨15, _⟩ => ⟨S16x1024x256, .f32⟩
  | .local _ .vmem, ⟨0, _⟩ => ⟨S1x1024x256, .f32⟩
  | .local _ .vmem, ⟨1, _⟩ => ⟨S1x1024x256, .f32⟩
  | .local _ .vmem, ⟨2, _⟩ => ⟨S256x256, .bf16⟩
  | .local _ .vmem, ⟨3, _⟩ => ⟨S256x256, .bf16⟩
  | .local _ .vmem, ⟨4, _⟩ => ⟨S256x256, .bf16⟩
  | .local _ .vmem, ⟨5, _⟩ => ⟨S1x256, .f32⟩
  | .local _ .vmem, ⟨6, _⟩ => ⟨S256x256, .bf16⟩
  | .local _ .vmem, ⟨7, _⟩ => ⟨S1x1024x256, .f32⟩
  | .local _ .vmem, ⟨8, _⟩ => ⟨S1x1024x256, .f32⟩
  | _, _ => ⟨S16x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  transposes_S256x256_S256x256_1_0 : S256x256.Transposes [1, 0] S256x256
  bitsLt_bf16_f32 : FTy.bits .bf16 < FTy.bits .f32
  shapeCasts_S256_S1x256 : S256.ShapeCasts S1x256
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  reduces_S1024x256_S1024 : S1024x256.Reduces [1] S1024
  shapeCasts_S1024_S1024x1 : S1024.ShapeCasts S1024x1
  broadcasts_S1024x1_S1024x256 : S1024x1.Broadcasts S1024x256
  shapeCasts_S1024x256_S1x1024x256 : S1024x256.ShapeCasts S1x1024x256
  dot_S1024x256_S256x256_S1024x256_1_0_0_1_n_n_wf : DotDims.WF S1024x256 S256x256 S1024x256 [1] [0] [0] [1] [] []
  dot_S1024x256_S1024x256_S1024x1024_1_1_0_0_n_n_wf : DotDims.WF S1024x256 S1024x256 S1024x1024 [1] [1] [0] [0] [] []
  dot_S1024x1024_S1024x256_S1024x256_1_0_0_1_n_n_wf : DotDims.WF S1024x1024 S1024x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x256.size a ≤ S16x1024x256.size a
  hwx0_0 : ∀ i : grid0.Coords, EltTy.bits .f32 = 32 ∨ (Rect.block (s := S16x1024x256) S1x1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .bf16 = 32 ∨ (Rect.block (s := S256x256) S256x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .bf16 = 32 ∨ (Rect.block (s := S256x256) S256x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .bf16 = 32 ∨ (Rect.block (s := S256x256) S256x256.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1024x256.size a ≤ S16x1024x256.size a
  hwx0_6 : ∀ i : grid0.Coords, EltTy.bits .f32 = 32 ∨ (Rect.block (s := S16x1024x256) S1x1024x256.size (cc0_transform_6 i) (hinb0_6 i)).WholeWords (EltTy.packing .f32)

variable [Facts₀]

def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S1024x256_S1024x256_S1024x1024_1_1_0_0_n_n : DotDims S1024x256 S1024x256 S1024x1024 where
  lhsContracting := [1]
  rhsContracting := [1]
  lhsNonContracting := [0]
  rhsNonContracting := [0]
  lhsBatch := []
  rhsBatch := []
  wf := dot_S1024x256_S1024x256_S1024x1024_1_1_0_0_n_n_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf

abbrev win0_0 : Pipeline.Window sig grid0 :=
  Pipeline.Window.ofSpec (Memref.whole main_arg0) S1x1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S1x1024x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S16x1024x256 : Shape := ⟨3, ![16, 1024, 256]⟩
abbrev S256x256 : Shape := ⟨2, ![256, 256]⟩
abbrev S256 : Shape := ⟨1, ![256]⟩
abbrev S1x1x256 : Shape := ⟨3, ![1, 1, 256]⟩
abbrev S16x1024x1024 : Shape := ⟨3, ![16, 1024, 1024]⟩
abbrev S1024x1024 : Shape := ⟨2, ![1024, 1024]⟩
abbrev S_ : Shape := ⟨0, ![]⟩
abbrev S1x1024x1024 : Shape := ⟨3, ![1, 1024, 1024]⟩

abbrev nBuf : Space → Nat
  | .hbm => 32
  | .vmem => 0
  | .smem => 0
  | _ => 0

abbrev bufTy : (tb : Table) → Fin (tcTables nBuf tb) → BufTy
  | .hbm, ⟨0, _⟩ => ⟨S16x1024x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S16x1024x256, .f32⟩
  | .hbm, ⟨7, _⟩ => ⟨S16x1024x256, .f32⟩
  | .hbm, ⟨8, _⟩ => ⟨S16x1024x256, .f32⟩
  | .hbm, ⟨9, _⟩ => ⟨S1x1x256, .f32⟩
  | .hbm, ⟨10, _⟩ => ⟨S16x1024x256, .f32⟩
  | .hbm, ⟨11, _⟩ => ⟨S16x1024x256, .f32⟩
  | .hbm, ⟨12, _⟩ => ⟨S16x1024x1024, .f32⟩
  | .hbm, ⟨13, _⟩ => ⟨S1024x1024, .i32⟩
  | .hbm, ⟨14, _⟩ => ⟨S1024x1024, .i32⟩
  | .hbm, ⟨15, _⟩ => ⟨S_, .i32⟩
  | .hbm, ⟨16, _⟩ => ⟨S1024x1024, .i32⟩
  | .hbm, ⟨17, _⟩ => ⟨S1024x1024, .i32⟩
  | .hbm, ⟨18, _⟩ => ⟨S1024x1024, .i1⟩
  | .hbm, ⟨19, _⟩ => ⟨S1024x1024, .f32⟩
  | .hbm, ⟨20, _⟩ => ⟨S_, .f32⟩
  | .hbm, ⟨21, _⟩ => ⟨S1024x1024, .f32⟩
  | .hbm, ⟨22, _⟩ => ⟨S1024x1024, .f32⟩
  | .hbm, ⟨23, _⟩ => ⟨S1x1024x1024, .f32⟩
  | .hbm, ⟨24, _⟩ => ⟨S16x1024x1024, .f32⟩
  | .hbm, ⟨25, _⟩ => ⟨S16x1024x1024, .f32⟩
  | .hbm, ⟨26, _⟩ => ⟨S16x1024x256, .f32⟩
  | .hbm, ⟨27, _⟩ => ⟨S_, .f32⟩
  | .hbm, ⟨28, _⟩ => ⟨S16x1024x256, .f32⟩
  | .hbm, ⟨29, _⟩ => ⟨S16x1024x256, .f32⟩
  | .hbm, ⟨30, _⟩ => ⟨S16x1024x256, .f32⟩
  | .hbm, ⟨31, _⟩ => ⟨S16x1024x256, .f32⟩
  | _, _ => ⟨S16x1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_0 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]

class Facts₀ : Prop where
  bcast_S256_S1x1x256_2 : S256.BroadcastsInDim S1x1x256 (![2] : Fin 1 → Fin S1x1x256.rank)
  bcast_S1x1x256_S16x1024x256_0_1_2 : S1x1x256.BroadcastsInDim S16x1024x256 (![0, 1, 2] : Fin 3 → Fin S16x1024x256.rank)
  bcast_S_S1024x1024 : S_.BroadcastsInDim S1024x1024 (![] : Fin 0 → Fin S1024x1024.rank)
  bcast_S1024x1024_S1x1024x1024_1_2 : S1024x1024.BroadcastsInDim S1x1024x1024 (![1, 2] : Fin 2 → Fin S1x1024x1024.rank)
  bcast_S1x1024x1024_S16x1024x1024_0_1_2 : S1x1024x1024.BroadcastsInDim S16x1024x1024 (![0, 1, 2] : Fin 3 → Fin S16x1024x1024.rank)
  bcast_S_S16x1024x256 : S_.BroadcastsInDim S16x1024x256 (![] : Fin 0 → Fin S16x1024x256.rank)
  dot_S16x1024x256_S256x256_S16x1024x256_2_1_01_0_n_n_wf : DotDims.WF S16x1024x256 S256x256 S16x1024x256 [2] [1] [0, 1] [0] [] []
  dot_S16x1024x256_S16x1024x256_S16x1024x1024_2_2_1_1_0_0_wf : DotDims.WF S16x1024x256 S16x1024x256 S16x1024x1024 [2] [2] [1] [1] [0] [0]
  dot_S16x1024x1024_S16x1024x256_S16x1024x256_2_1_1_2_0_0_wf : DotDims.WF S16x1024x1024 S16x1024x256 S16x1024x256 [2] [1] [1] [2] [0] [0]

variable [Facts₀]

def dot_S16x1024x256_S256x256_S16x1024x256_2_1_01_0_n_n : DotDims S16x1024x256 S256x256 S16x1024x256 where
  lhsContracting := [2]
  rhsContracting := [1]
  lhsNonContracting := [0, 1]
  rhsNonContracting := [0]
  lhsBatch := []
  rhsBatch := []
  wf := dot_S16x1024x256_S256x256_S16x1024x256_2_1_01_0_n_n_wf
def dot_S16x1024x256_S16x1024x256_S16x1024x1024_2_2_1_1_0_0 : DotDims S16x1024x256 S16x1024x256 S16x1024x1024 where
  lhsContracting := [2]
  rhsContracting := [2]
  lhsNonContracting := [1]
  rhsNonContracting := [1]
  lhsBatch := [0]
  rhsBatch := [0]
  wf := dot_S16x1024x256_S16x1024x256_S16x1024x1024_2_2_1_1_0_0_wf
def dot_S16x1024x1024_S16x1024x256_S16x1024x256_2_1_1_2_0_0 : DotDims S16x1024x1024 S16x1024x256 S16x1024x256 where
  lhsContracting := [2]
  rhsContracting := [1]
  lhsNonContracting := [1]
  rhsNonContracting := [2]
  lhsBatch := [0]
  rhsBatch := [0]
  wf := dot_S16x1024x1024_S16x1024x256_S16x1024x256_2_1_1_2_0_0_wf

class Facts : Prop extends Facts₀ where

variable [Facts]
-- ==== Proof.Contractions.lean ====
/-
  The three matrix products of the kernel's body, each read at one entry of its result.

  Every product accumulates into zeros, so at the exact values an entry is just the sum over the contracted coordinate:
    * rows against columns, [n, k] × [k, g] with k < 256 (the three projections and the last one);
    * rows against rows, [i, k] × [j, k] with k < 256 (the scores: α times the transpose of β);
    * rows against columns, [i, j] × [j, g] with j < 1024 (the scores contracted with the unary term).
  The dimension numbers decide, coordinate by coordinate, which operand entry meets which; the one contracted axis is
  re-indexed by its single coordinate.
-/
import proofs.«142790_j18803366822301_1_alg».proof.Proof.Gen.KernelIdeal
import Idealize.ShloMosaic.PureOps.Ideal.Laws
import Idealize.ShloMosaic.Lib.ValueIdx

noncomputable section

open scoped BigOperators

namespace Cert.KernelIdeal.Body

open Cert.KernelIdeal Idealize.ShloMosaic Idealize.ShloMosaic.ValueIdx

/-- [1024, 256] × [256, 256] → [1024, 256], contracting the left's columns with the right's rows. -/
abbrev dProj : DotDims S1024x256 S256x256 S1024x256 := dot_S1024x256_S256x256_S1024x256_1_0_0_1_n_n
/-- [1024, 256] × [1024, 256] → [1024, 1024], contracting both operands' columns. -/
abbrev dScore : DotDims S1024x256 S1024x256 S1024x1024 := dot_S1024x256_S1024x256_S1024x1024_1_1_0_0_n_n
/-- [1024, 1024] × [1024, 256] → [1024, 256], contracting the left's columns with the right's rows. -/
abbrev dAtt : DotDims S1024x1024 S1024x256 S1024x256 := dot_S1024x1024_S1024x256_S1024x256_1_0_0_1_n_n

/-! ## Rows against columns, 256 contracted -/

theorem proj_lhs0 (j : S1024x256.Idx) (q : dProj.contr.Idx) : (dProj.lhsIdx j q 0).val = (j 0).val := by
  unfold DotDims.lhsIdx
  rw [dif_neg (show ¬(0 : Fin S1024x256.rank) ∈ dProj.lhsBatch by decide), dif_pos (show (0 : Fin S1024x256.rank) ∈ dProj.lhsNonContracting by decide)]
  rfl

theorem proj_rhs1 (j : S1024x256.Idx) (q : dProj.contr.Idx) : (dProj.rhsIdx j q 1).val = (j 1).val := by
  unfold DotDims.rhsIdx
  rw [dif_neg (show ¬(1 : Fin S256x256.rank) ∈ dProj.rhsBatch by decide), dif_pos (show (1 : Fin S256x256.rank) ∈ dProj.rhsNonContracting by decide)]
  rfl

/-- Entry (n, g) of a [1024, 256] × [256, 256] product into zeros: the sum over k of left (n, k) times right (k, g). -/
theorem matmul_proj_apply (l : FVec Ideal S1024x256 .bf16) (r : FVec Ideal S256x256 .bf16) (n : Fin 1024) (g : Fin 256) :
    matmul dProj none l r (constant (F := Ideal) S1024x256 .f32 0x00000000#32) (ix2 n g)
      = ∑ k : Fin 256, l (ix2 n k) * r (ix2 k g) := by
  simp only [matmul]
  rw [Ideal.matmul_constant_zero_apply, ← Equiv.sum_comp (contrEquiv1 dProj 256 rfl rfl).symm]
  refine Finset.sum_congr rfl fun k _ => ?_
  have hk := contrEquiv1_symm_val dProj 256 rfl rfl k
  have el : dProj.lhsIdx (ix2 n g) ((contrEquiv1 dProj 256 rfl rfl).symm k) = ix2 n k := funext fun a => Fin.ext (by
    match a with
    | ⟨0, _⟩ => exact proj_lhs0 _ _
    | ⟨1, _⟩ => exact (dProj.lhsIdx_val_of_single rfl _ _).trans hk)
  have er : dProj.rhsIdx (ix2 n g) ((contrEquiv1 dProj 256 rfl rfl).symm k) = ix2 k g := funext fun a => Fin.ext (by
    match a with
    | ⟨0, _⟩ => exact (dProj.rhsIdx_val_of_single rfl _ _).trans hk
    | ⟨1, _⟩ => exact proj_rhs1 _ _)
  rw [el, er]

/-! ## Rows against rows, 256 contracted -/

theorem score_lhs0 (j : S1024x1024.Idx) (q : dScore.contr.Idx) : (dScore.lhsIdx j q 0).val = (j 0).val := by
  unfold DotDims.lhsIdx
  rw [dif_neg (show ¬(0 : Fin S1024x256.rank) ∈ dScore.lhsBatch by decide), dif_pos (show (0 : Fin S1024x256.rank) ∈ dScore.lhsNonContracting by decide)]
  rfl

theorem score_rhs0 (j : S1024x1024.Idx) (q : dScore.contr.Idx) : (dScore.rhsIdx j q 0).val = (j 1).val := by
  unfold DotDims.rhsIdx
  rw [dif_neg (show ¬(0 : Fin S1024x256.rank) ∈ dScore.rhsBatch by decide), dif_pos (show (0 : Fin S1024x256.rank) ∈ dScore.rhsNonContracting by decide)]
  rfl

/-- Entry (i, j) of a [1024, 256] × [1024, 256] product over both column axes, into zeros: the inner product of row i
    of the left with row j of the right. -/
theorem matmul_score_apply (l r : FVec Ideal S1024x256 .bf16) (i j : Fin 1024) :
    matmul dScore none l r (constant (F := Ideal) S1024x1024 .f32 0x00000000#32) (ix2 i j)
      = ∑ k : Fin 256, l (ix2 i k) * r (ix2 j k) := by
  simp only [matmul]
  rw [Ideal.matmul_constant_zero_apply, ← Equiv.sum_comp (contrEquiv1 dScore 256 rfl rfl).symm]
  refine Finset.sum_congr rfl fun k _ => ?_
  have hk := contrEquiv1_symm_val dScore 256 rfl rfl k
  have el : dScore.lhsIdx (ix2 i j) ((contrEquiv1 dScore 256 rfl rfl).symm k) = ix2 i k := funext fun a => Fin.ext (by
    match a with
    | ⟨0, _⟩ => exact score_lhs0 _ _
    | ⟨1, _⟩ => exact (dScore.lhsIdx_val_of_single rfl _ _).trans hk)
  have er : dScore.rhsIdx (ix2 i j) ((contrEquiv1 dScore 256 rfl rfl).symm k) = ix2 j k := funext fun a => Fin.ext (by
    match a with
    | ⟨0, _⟩ => exact score_rhs0 _ _
    | ⟨1, _⟩ => exact (dScore.rhsIdx_val_of_single rfl _ _).trans hk)
  rw [el, er]

/-! ## Rows against columns, 1024 contracted -/

theorem att_lhs0 (j : S1024x256.Idx) (q : dAtt.contr.Idx) : (dAtt.lhsIdx j q 0).val = (j 0).val := by
  unfold DotDims.lhsIdx
  rw [dif_neg (show ¬(0 : Fin S1024x1024.rank) ∈ dAtt.lhsBatch by decide), dif_pos (show (0 : Fin S1024x1024.rank) ∈ dAtt.lhsNonContracting by decide)]
  rfl

theorem att_rhs1 (j : S1024x256.Idx) (q : dAtt.contr.Idx) : (dAtt.rhsIdx j q 1).val = (j 1).val := by
  unfold DotDims.rhsIdx
  rw [dif_neg (show ¬(1 : Fin S1024x256.rank) ∈ dAtt.rhsBatch by decide), dif_pos (show (1 : Fin S1024x256.rank) ∈ dAtt.rhsNonContracting by decide)]
  rfl

/-- Entry (i, g) of a [1024, 1024] × [1024, 256] product into zeros: the sum over j of left (i, j) times right (j, g). -/
theorem matmul_att_apply (l : FVec Ideal S1024x1024 .bf16) (r : FVec Ideal S1024x256 .bf16) (i : Fin 1024) (g : Fin 256) :
    matmul dAtt none l r (constant (F := Ideal) S1024x256 .f32 0x00000000#32) (ix2 i g)
      = ∑ j : Fin 1024, l (ix2 i j) * r (ix2 j g) := by
  simp only [matmul]
  rw [Ideal.matmul_constant_zero_apply, ← Equiv.sum_comp (contrEquiv1 dAtt 1024 rfl rfl).symm]
  refine Finset.sum_congr rfl fun k _ => ?_
  have hk := contrEquiv1_symm_val dAtt 1024 rfl rfl k
  have el : dAtt.lhsIdx (ix2 i g) ((contrEquiv1 dAtt 1024 rfl rfl).symm k) = ix2 i k := funext fun a => Fin.ext (by
    match a with
    | ⟨0, _⟩ => exact att_lhs0 _ _
    | ⟨1, _⟩ => exact (dAtt.lhsIdx_val_of_single rfl _ _).trans hk)
  have er : dAtt.rhsIdx (ix2 i g) ((contrEquiv1 dAtt 1024 rfl rfl).symm k) = ix2 k g := funext fun a => Fin.ext (by
    match a with
    | ⟨0, _⟩ => exact (dAtt.rhsIdx_val_of_single rfl _ _).trans hk
    | ⟨1, _⟩ => exact att_rhs1 _ _)
  rw [el, er]

end Cert.KernelIdeal.Body

end
-- ==== Proof.LibKeepdims.lean ====
/-
  Small facts about reading a vector operation AT AN INDEX, over shapes with literal rank and any extents — the ones a
  kernel written with `keepdims=True` sums and trailing-axis broadcasts meets, and a 7 × 7 window flattened to 49 lanes:

  * a lane sum of a rank-3 vector, and a row sum of a rank-2 vector, as `Fin`-indexed sums (`laneSum3_apply`, `rowSum2_apply`);
  * the casts [a] → [a, 1] and [a, b] → [a, b, 1] (`cast_col_apply`, `cast_col3_apply`);
  * the broadcasts [a, 1] → [a, b] and [a, b, 1] → [a, b, c] (`bcast_col_apply`, `bcast_col3_apply`);
  * the reshapes between [a, b, 7, 7] and [a, b, 49] (`flatten77_apply`, `unflatten77_apply`);
  * the host's sum over the two trailing axes of [a, b, 7, 7] as the initial value plus the sum over the 49 row-major
    positions (`hostSum77_apply`).

  All at the ideal values where a sum is involved; the layout ones for any element type.
-/
import Idealize.ShloMosaic.PureOps.Ideal.Laws
import Idealize.ShloMosaic.Lib.Pipeline.Value
import Idealize.ShloMosaic.Lib.ValueIdx

noncomputable section

open scoped BigOperators

namespace Idealize.ShloMosaic.Keepdims

open Idealize.ShloMosaic Idealize.ShloMosaic.ValueIdx

/-! ## Sums -/

/-- A lane sum (over the last axis) of a rank-3 vector, at (a, b): the sum over the lane coordinate. -/
theorem laneSum3_apply {n0 n1 n2 : Nat} {φ : FTy} (v : FVec Ideal ⟨3, ![n0, n1, n2]⟩ φ) (acc : BitVec φ.bits)
    (h : (⟨3, ![n0, n1, n2]⟩ : Shape).Reduces [2] ⟨2, ![n0, n1]⟩) (hφ : FKind.Formats φ) (hacc : acc = FKind.add.neutral φ hφ)
    (a : Fin n0) (b : Fin n1) :
    multiReduction .add [2] ⟨2, ![n0, n1]⟩ v acc h hφ hacc (ix2 a b) = ∑ k : Fin n2, v (ix3 a b k) :=
  (Ideal.multiReduction_add_single v acc h hφ hacc (ix2 a b)).trans
    (Finset.sum_congr rfl fun k _ => congrArg v (funext fun d => Fin.ext (by
      match d with | ⟨0, _⟩ => rfl | ⟨1, _⟩ => rfl | ⟨2, _⟩ => rfl)))

/-- A sum over the second axis of a rank-2 vector, at a: the sum over the column coordinate. -/
theorem rowSum2_apply {n0 n1 : Nat} {φ : FTy} (v : FVec Ideal ⟨2, ![n0, n1]⟩ φ) (acc : BitVec φ.bits)
    (h : (⟨2, ![n0, n1]⟩ : Shape).Reduces [1] ⟨1, ![n0]⟩) (hφ : FKind.Formats φ) (hacc : acc = FKind.add.neutral φ hφ)
    (a : Fin n0) :
    multiReduction .add [1] ⟨1, ![n0]⟩ v acc h hφ hacc (ix1 a) = ∑ c : Fin n1, v (ix2 a c) :=
  (Ideal.multiReduction_add_single v acc h hφ hacc (ix1 a)).trans
    (Finset.sum_congr rfl fun k _ => congrArg v (funext fun d => Fin.ext (by
      match d with | ⟨0, _⟩ => rfl | ⟨1, _⟩ => rfl)))

/-! ## Keepdims casts and trailing-axis broadcasts -/

section Layout
variable {α : Type}

/-- [a] viewed [a, 1]: entry (i, 0) is entry i. -/
theorem cast_col_apply {a : Nat} (v : (⟨1, ![a]⟩ : Shape).Idx → α) (h : (⟨1, ![a]⟩ : Shape).ShapeCasts ⟨2, ![a, 1]⟩)
    (i : Fin a) (z : Fin 1) : shapeCast ⟨2, ![a, 1]⟩ v h (ix2 i z) = v (ix1 i) :=
  shapeCast_apply v h (ix2 i z) (ix1 i) (by
    rw [Shape.rowMajor_val_one, Shape.rowMajor_val_two]
    show i.val = i.val * 1 + z.val
    have := z.isLt; omega)

/-- [a, b] viewed [a, b, 1]: entry (i, j, 0) is entry (i, j). -/
theorem cast_col3_apply {a b : Nat} (v : (⟨2, ![a, b]⟩ : Shape).Idx → α) (h : (⟨2, ![a, b]⟩ : Shape).ShapeCasts ⟨3, ![a, b, 1]⟩)
    (i : Fin a) (j : Fin b) (z : Fin 1) : shapeCast ⟨3, ![a, b, 1]⟩ v h (ix3 i j z) = v (ix2 i j) :=
  shapeCast_apply v h (ix3 i j z) (ix2 i j) (by
    rw [Shape.rowMajor_val_two, Shape.rowMajor_val_three]
    show i.val * b + j.val = (i.val * b + j.val) * 1 + z.val
    have := z.isLt; omega)

/-- A column [a, 1] broadcast along a new second extent: entry (i, j) is the column's entry (i, 0). -/
theorem bcast_col_apply {a b : Nat} (u : (⟨2, ![a, 1]⟩ : Shape).Idx → α) (h : (⟨2, ![a, 1]⟩ : Shape).Broadcasts ⟨2, ![a, b]⟩)
    (i : Fin a) (j : Fin b) : broadcastTo ⟨2, ![a, b]⟩ u h (ix2 i j) = u (ix2 i 0) :=
  broadcastTo_apply u h (ix2 i j) (ix2 i 0) (fun d => by
    match d with
    | ⟨0, _⟩ =>
      show i.val = if a = 1 then 0 else i.val
      split
      · have := i.isLt; omega
      · rfl
    | ⟨1, _⟩ => show 0 = if (1 : Nat) = 1 then 0 else j.val; rw [if_pos rfl])

/-- A [a, b, 1] vector broadcast along a new last extent: entry (i, j, k) is entry (i, j, 0). -/
theorem bcast_col3_apply {a b c : Nat} (u : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ u h (ix3 i j k) = u (ix3 i j 0) :=
  broadcastTo_apply u h (ix3 i j k) (ix3 i j 0) (fun d => by
    match d with
    | ⟨0, _⟩ =>
      show i.val = if a = 1 then 0 else i.val
      split
      · have := i.isLt; omega
      · rfl
    | ⟨1, _⟩ =>
      show j.val = if b = 1 then 0 else j.val
      split
      · have := j.isLt; omega
      · rfl
    | ⟨2, _⟩ => show 0 = if (1 : Nat) = 1 then 0 else k.val; rw [if_pos rfl])

/-! ## A 7 × 7 window as 49 lanes -/

/-- Lane `k` of 49 as the row-major pair (k / 7, k % 7), and the pair's lane. -/
abbrev hi7 (k : Fin 49) : Fin 7 := ⟨k.val / 7, by have := k.isLt; omega⟩
abbrev lo7 (k : Fin 49) : Fin 7 := ⟨k.val % 7, Nat.mod_lt _ (by decide)⟩
abbrev lane7 (p q : Fin 7) : Fin 49 := ⟨7 * p.val + q.val, by have := p.isLt; have := q.isLt; omega⟩

/-- [a, b, 7, 7] reshaped to [a, b, 49]: lane k of (i, j) is entry (i, j, k / 7, k % 7). -/
theorem flatten77_apply {a b : Nat} (X : (⟨4, ![a, b, 7, 7]⟩ : Shape).Idx → α)
    (h : (⟨4, ![a, b, 7, 7]⟩ : Shape).ShapeCasts ⟨3, ![a, b, 49]⟩) (i : Fin a) (j : Fin b) (k : Fin 49) :
    shapeCast ⟨3, ![a, b, 49]⟩ X h (ix3 i j k) = X (ix4 i j (hi7 k) (lo7 k)) :=
  shapeCast_apply X h (ix3 i j k) (ix4 i j (hi7 k) (lo7 k)) (by
    rw [Shape.rowMajor_val_three, Shape.rowMajor_val_four]
    show ((i.val * b + j.val) * 7 + k.val / 7) * 7 + k.val % 7 = (i.val * b + j.val) * 49 + k.val
    omega)

/-- [a, b, 49] reshaped to [a, b, 7, 7]: entry (i, j, p, q) is lane 7p + q of (i, j). -/
theorem unflatten77_apply {a b : Nat} (A : (⟨3, ![a, b, 49]⟩ : Shape).Idx → α)
    (h : (⟨3, ![a, b, 49]⟩ : Shape).ShapeCasts ⟨4, ![a, b, 7, 7]⟩) (i : Fin a) (j : Fin b) (p q : Fin 7) :
    shapeCast ⟨4, ![a, b, 7, 7]⟩ A h (ix4 i j p q) = A (ix3 i j (lane7 p q)) :=
  shapeCast_apply A h (ix4 i j p q) (ix3 i j (lane7 p q)) (by
    rw [Shape.rowMajor_val_three, Shape.rowMajor_val_four]
    show (i.val * b + j.val) * 49 + (7 * p.val + q.val) = ((i.val * b + j.val) * 7 + p.val) * 7 + q.val
    omega)

end Layout

/-- The host's sum over the two trailing axes of a [a, b, 7, 7] array, at (i, j): the initial value plus the sum over the
    49 row-major positions. The indices that drop to (i, j) are exactly the (i, j, k / 7, k % 7). -/
theorem hostSum77_apply {a b : Nat} (h' : (⟨4, ![a, b, 7, 7]⟩ : Shape).ReducesTo [2, 3] ⟨2, ![a, b]⟩)
    (X : (⟨4, ![a, b, 7, 7]⟩ : Shape).Idx → EReal) (init : EReal) (i : Fin a) (j : Fin b) :
    Ideal.hostReduceAdd h' X init (ix2 i j) = init + ∑ k : Fin 49, X (ix4 i j (hi7 k) (lo7 k)) := by
  unfold Ideal.hostReduceAdd
  refine congrArg (init + ·) (Eq.symm ?_)
  refine Finset.sum_bij (fun k _ => ix4 i j (hi7 k) (lo7 k)) ?_ ?_ ?_ ?_
  · intro k _
    rw [Finset.mem_filter]
    refine ⟨Finset.mem_univ _, funext fun d => Fin.ext ?_⟩
    match d with
    | ⟨0, _⟩ => rfl
    | ⟨1, _⟩ => rfl
  · intro k _ k' _ e
    have e2 : k.val / 7 = k'.val / 7 := congrArg (fun x : (⟨4, ![a, b, 7, 7]⟩ : Shape).Idx => (x 2).val) e
    have e3 : k.val % 7 = k'.val % 7 := congrArg (fun x : (⟨4, ![a, b, 7, 7]⟩ : Shape).Idx => (x 3).val) e
    exact Fin.ext (by omega)
  · intro x hx
    rw [Finset.mem_filter] at hx
    have h0 : (x 0).val = i.val := congrArg (fun y : (⟨2, ![a, b]⟩ : Shape).Idx => (y 0).val) hx.2
    have h1 : (x 1).val = j.val := congrArg (fun y : (⟨2, ![a, b]⟩ : Shape).Idx => (y 1).val) hx.2
    have h2 : (x 2).val < 7 := (x 2).isLt
    have h3 : (x 3).val < 7 := (x 3).isLt
    refine ⟨⟨7 * (x 2).val + (x 3).val, by omega⟩, Finset.mem_univ _, funext fun d => Fin.ext ?_⟩
    match d with
    | ⟨0, _⟩ => exact h0.symm
    | ⟨1, _⟩ => exact h1.symm
    | ⟨2, _⟩ => show (7 * (x 2).val + (x 3).val) / 7 = (x 2).val; omega
    | ⟨3, _⟩ => show (7 * (x 2).val + (x 3).val) % 7 = (x 3).val; omega
  · intro k _; rfl

end Idealize.ShloMosaic.Keepdims

end
-- ==== Proof.DiagonalLaw.lean ====
/-
  Attention over all pairs with the diagonal left out, written two ways, and why they agree.

  With rows `A i`, `B j` and `U j` of three projections of one block of inputs, the score of the pair (i, j) is the inner
  product `∑ f, A i f * B j f`. One arrangement multiplies each score by 0 on the diagonal and by 1 off it, contracts with
  `U`, and divides by 1024. The other contracts ALL scores with `U`, subtracts the one diagonal term
  `(∑ f, A i f * B i f) * U i g`, and multiplies by 1/1024. Over the real numbers these are the same: a sum with one term
  zeroed is the whole sum minus that term. Over the extended reals the subtraction only cancels when the term is finite,
  so the law is stated for real-valued `A`, `B`, `U`; projections of real inputs are real because a finite sum of
  products of reals is real.
-/
import Idealize.ShloMosaic.PureOps.Ideal

noncomputable section

open scoped BigOperators

namespace Cert.OffDiagonal

open Idealize.ShloMosaic

variable {N D : ℕ}

/-! ## Real sums inside the extended reals -/

/-- The coercion of a finite real sum is the sum of the coercions. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- An inner product of real vectors, computed in the extended reals, is the real inner product. -/
theorem sum_coe_mul {ι : Type} [Fintype ι] (a b : ι → ℝ) :
    ∑ k, (a k : EReal) * (b k : EReal) = ((∑ k, a k * b k : ℝ) : EReal) := by
  rw [coe_sum]
  exact Finset.sum_congr rfl fun k _ => (EReal.coe_mul _ _).symm

/-! ## The two arrangements -/

/-- Row `n` of `X` against row `g` of `W`: the linear map `x ↦ x Wᵀ`. -/
def proj (X : Fin N → Fin D → EReal) (W : Fin D → Fin D → EReal) (n : Fin N) (g : Fin D) : EReal :=
  ∑ f, X n f * W g f

/-- The projection with a bias added. -/
def unary (X : Fin N → Fin D → EReal) (W : Fin D → Fin D → EReal) (b : Fin D → EReal) (n : Fin N) (g : Fin D) : EReal :=
  proj X W n g + b g

/-- 0 on the diagonal, 1 off it. -/
def offDiag (i j : Fin N) : EReal := if i = j then 0 else 1

/-- All pairs contracted, the diagonal pair's term subtracted, scaled by 1/1024. -/
def attSub (A B U : Fin N → Fin D → EReal) (i : Fin N) (g : Fin D) : EReal :=
  ((∑ j, (∑ f, A i f * B j f) * U j g) - (∑ f, A i f * B i f) * U i g) * ((1 / 1024 : ℝ) : EReal)

/-- The scores masked off the diagonal, contracted, divided by 1024. -/
def attMask (A B U : Fin N → Fin D → EReal) (i : Fin N) (g : Fin D) : EReal :=
  Ideal.div (∑ j, ((∑ f, A i f * B j f) * offDiag i j) * U j g) ((1024 : ℝ) : EReal)

/-- The last projection and the residual input. -/
def outOf (att X : Fin N → Fin D → EReal) (W : Fin D → Fin D → EReal) (n : Fin N) (g : Fin D) : EReal :=
  (∑ f, att n f * W g f) + X n g

/-- One block's result with the diagonal term subtracted. -/
def subForm (X : Fin N → Fin D → EReal) (Wa Wb Wu : Fin D → Fin D → EReal) (b : Fin D → EReal) (Wr : Fin D → Fin D → EReal) :
    Fin N → Fin D → EReal :=
  outOf (attSub (proj X Wa) (proj X Wb) (unary X Wu b)) X Wr

/-- One block's result with the diagonal masked. -/
def maskForm (X : Fin N → Fin D → EReal) (Wa Wb Wu : Fin D → Fin D → EReal) (b : Fin D → EReal) (Wr : Fin D → Fin D → EReal) :
    Fin N → Fin D → EReal :=
  outOf (attMask (proj X Wa) (proj X Wb) (unary X Wu b)) X Wr

/-! ## The law -/

/-- A real sum with the `i`-th term zeroed is the whole sum minus that term. -/
theorem sum_sub_diag (s w : Fin N → ℝ) (i : Fin N) :
    (∑ j, s j * w j) - s i * w i = ∑ j, s j * (if i = j then 0 else 1) * w j := by
  have h : ∀ j, s j * (if i = j then (0 : ℝ) else 1) * w j = s j * w j - (if i = j then s j * w j else 0) := by
    intro j; split_ifs <;> ring
  simp only [h, Finset.sum_sub_distrib, Finset.sum_ite_eq, Finset.mem_univ, if_true]

/-- For real-valued projections the two arrangements agree. -/
theorem attSub_eq_attMask (a b u : Fin N → Fin D → ℝ) :
    attSub (fun n f => (a n f : EReal)) (fun n f => (b n f : EReal)) (fun n f => (u n f : EReal))
      = attMask (fun n f => (a n f : EReal)) (fun n f => (b n f : EReal)) (fun n f => (u n f : EReal)) := by
  funext i g
  unfold attSub attMask
  rw [Ideal.div_coe (by norm_num : (1024 : ℝ) ≠ 0)]
  simp only [sum_coe_mul]
  congr 1
  have hm : ∀ j, (((∑ f, a i f * b j f : ℝ) : EReal) * offDiag i j) * (u j g : EReal)
      = (((∑ f, a i f * b j f) * (if i = j then 0 else 1) * u j g : ℝ) : EReal) := by
    intro j
    unfold offDiag
    split_ifs
    · rw [mul_zero, mul_zero, zero_mul, zero_mul, EReal.coe_zero]
    · rw [mul_one, mul_one, EReal.coe_mul]
  simp only [hm]
  rw [← coe_sum, ← sum_sub_diag, EReal.coe_sub, EReal.coe_mul, coe_sum]

/-- A projection of real inputs is real. -/
theorem proj_coe (x : Fin N → Fin D → ℝ) (w : Fin D → Fin D → ℝ) :
    proj (fun n f => (x n f : EReal)) (fun g f => (w g f : EReal)) = fun n g => ((∑ f, x n f * w g f : ℝ) : EReal) := by
  funext n g
  exact sum_coe_mul _ _

/-- A biased projection of real inputs is real. -/
theorem unary_coe (x : Fin N → Fin D → ℝ) (w : Fin D → Fin D → ℝ) (b : Fin D → ℝ) :
    unary (fun n f => (x n f : EReal)) (fun g f => (w g f : EReal)) (fun g => (b g : EReal))
      = fun n g => (((∑ f, x n f * w g f) + b g : ℝ) : EReal) := by
  funext n g
  unfold unary
  rw [proj_coe, EReal.coe_add]

/-- THE LAW: on real inputs, subtracting the diagonal term and masking the diagonal give one result. The last
    projection's weights need no hypothesis: both sides contract the same values with them. -/
theorem subForm_eq_maskForm (X : Fin N → Fin D → EReal) (Wa Wb Wu : Fin D → Fin D → EReal) (b : Fin D → EReal)
    (Wr : Fin D → Fin D → EReal)
    (hX : ∀ n f, ∃ r : ℝ, X n f = (r : EReal)) (hWa : ∀ g f, ∃ r : ℝ, Wa g f = (r : EReal))
    (hWb : ∀ g f, ∃ r : ℝ, Wb g f = (r : EReal)) (hWu : ∀ g f, ∃ r : ℝ, Wu g f = (r : EReal))
    (hb : ∀ g, ∃ r : ℝ, b g = (r : EReal)) :
    subForm X Wa Wb Wu b Wr = maskForm X Wa Wb Wu b Wr := by
  choose x hx using hX
  choose wa hwa using hWa
  choose wb hwb using hWb
  choose wu hwu using hWu
  choose b' hb' using hb
  obtain rfl : X = fun n f => (x n f : EReal) := funext fun n => funext fun f => hx n f
  obtain rfl : Wa = fun g f => (wa g f : EReal) := funext fun g => funext fun f => hwa g f
  obtain rfl : Wb = fun g f => (wb g f : EReal) := funext fun g => funext fun f => hwb g f
  obtain rfl : Wu = fun g f => (wu g f : EReal) := funext fun g => funext fun f => hwu g f
  obtain rfl : b = fun g => (b' g : EReal) := funext fun g => hb' g
  unfold subForm maskForm
  rw [proj_coe, proj_coe, unary_coe, attSub_eq_attMask]

end Cert.OffDiagonal

end
-- ==== Proof.Result.lean ====
/-
  The result both programs compute, as one function of the six argument arrays, entry by entry.

  The input x is 16 blocks of 1024 rows of 256 features; the four weight matrices are 256 × 256 and the bias has 256
  entries. Entry (b, n, g) of the result depends on block b of x only: it is entry (n, g) of the block's attention
  with the diagonal left out (`OffDiagonal.maskForm`), projected once more and added to the input. The arrays are
  read through their coordinates: `rowsOf x b n f = x (b, n, f)`, `matOf w g f = w (g, f)`, `vecOf v g = v g`.
-/
import proofs.«142790_j18803366822301_1_alg».proof.Proof.DiagonalLaw
import Idealize.ShloMosaic.Lib.ValueIdx

noncomputable section

namespace Cert.OffDiagonal

open Idealize.ShloMosaic Idealize.ShloMosaic.ValueIdx

/-- Block `b` of a [16, 1024, 256] array, as rows of features. -/
def rowsOf (x : (⟨3, ![16, 1024, 256]⟩ : Shape).Idx → EReal) (b : Fin 16) : Fin 1024 → Fin 256 → EReal :=
  fun n f => x (ix3 b n f)

/-- A [256, 256] array by its two coordinates. -/
def matOf (w : (⟨2, ![256, 256]⟩ : Shape).Idx → EReal) : Fin 256 → Fin 256 → EReal :=
  fun g f => w (ix2 g f)

/-- A [256] array by its coordinate. -/
def vecOf (v : (⟨1, ![256]⟩ : Shape).Idx → EReal) : Fin 256 → EReal :=
  fun g => v (ix1 g)

/-- THE RESULT: block by block, the attention with the diagonal masked, projected and added to the input. -/
def result (x : (⟨3, ![16, 1024, 256]⟩ : Shape).Idx → EReal) (wa wb wu : (⟨2, ![256, 256]⟩ : Shape).Idx → EReal)
    (bu : (⟨1, ![256]⟩ : Shape).Idx → EReal) (wr : (⟨2, ![256, 256]⟩ : Shape).Idx → EReal) :
    (⟨3, ![16, 1024, 256]⟩ : Shape).Idx → EReal :=
  fun i => maskForm (rowsOf x (i 0)) (matOf wa) (matOf wb) (matOf wu) (vecOf bu) (matOf wr) (i 1) (i 2)

/-- The result at an entry given by its coordinates. -/
theorem result_ix3 (x : (⟨3, ![16, 1024, 256]⟩ : Shape).Idx → EReal) (wa wb wu : (⟨2, ![256, 256]⟩ : Shape).Idx → EReal)
    (bu : (⟨1, ![256]⟩ : Shape).Idx → EReal) (wr : (⟨2, ![256, 256]⟩ : Shape).Idx → EReal)
    (b : Fin 16) (n : Fin 1024) (g : Fin 256) :
    result x wa wb wu bu wr (ix3 b n g) = maskForm (rowsOf x b) (matOf wa) (matOf wb) (matOf wu) (vecOf bu) (matOf wr) n g := rfl

end Cert.OffDiagonal

end
-- ==== Proof.Literals.lean ====
/-
  The three float literals the two programs spell, as the real numbers their bit patterns denote: the kernel's scale
  2⁻¹⁰ = 1/1024, the reference's divisor 1024 = 2¹⁰, and the reference's 1 from which the diagonal indicator is
  subtracted. All three are powers of two, so each pattern denotes its number exactly.
-/
import Idealize.ShloMosaic.PureOps.Ideal

noncomputable section

namespace Cert.OffDiagonal.Literals

open Idealize.ShloMosaic

/-- The pattern 0x3A800000 (sign 0, exponent 117, fraction 0) is 2⁻¹⁰. -/
theorem ofBits_inv1024 : Ideal.ofBits .f32 0x3A800000#32 = ((1 / 1024 : ℝ) : EReal) := by
  simp [Ideal.ofBits, Ideal.ieee, -EReal.coe_mul]; norm_num

/-- The pattern 0x44800000 (sign 0, exponent 137, fraction 0) is 2¹⁰. -/
theorem ofBits_1024 : Ideal.ofBits .f32 0x44800000#32 = ((1024 : ℝ) : EReal) := by
  simp [Ideal.ofBits, Ideal.ieee, -EReal.coe_mul]; norm_num

/-- The pattern 0x3F800000 (sign 0, exponent 127, fraction 0) is 1. -/
theorem ofBits_one : Ideal.ofBits .f32 0x3F800000#32 = 1 := by
  simp [Ideal.ofBits, Ideal.ieee, -EReal.coe_mul]; norm_num

end Cert.OffDiagonal.Literals

end
-- ==== Proof.BodyReading.lean ====
/-
  The kernel body's result, read at one entry, in terms of the blocks it loads.

  The body loads a [1, 1024, 256] block X of inputs, four [256, 256] matrices that are already TRANSPOSED weights (entry
  (f, g) of a loaded matrix is entry (g, f) of the weight), and a [1, 256] bias row. It computes
    α = X · Wα,  β = X · Wβ,  u = X · Wu + bias            (three products into zeros; the bias row broadcast over rows)
    d_n = ∑_g α_{n g} β_{n g}                               (a sum along each row, kept as a column and broadcast back)
    S = α · βᵀ,  T = S · u                                  (two more products into zeros)
    out = ((T − d ⊙ u) · 2⁻¹⁰) · Wr + X                     (the last product into zeros, and the residual).
  The roundings to the narrow format between the steps are the identity at the exact values. Read at entry (n, g) this is
  `OffDiagonal.subForm` — all pairs contracted, the diagonal pair's term subtracted — of the loads, with each loaded
  matrix read through its transpose.
-/
import proofs.«142790_j18803366822301_1_alg».proof.Proof.Gen.KernelIdeal.Skeleton
import proofs.«142790_j18803366822301_1_alg».proof.Proof.Contractions
import proofs.«142790_j18803366822301_1_alg».proof.Proof.LibKeepdims
import proofs.«142790_j18803366822301_1_alg».proof.Proof.Result
import proofs.«142790_j18803366822301_1_alg».proof.Proof.Literals
import Idealize.ShloMosaic.Lib.ValueLayout
import Idealize.ShloMosaic.Lib.Pipeline.Value

noncomputable section

open scoped BigOperators

namespace Cert.KernelIdeal.Body

open Cert.KernelIdeal Cert.KernelIdeal.Gen Cert.OffDiagonal Idealize.ShloMosaic Idealize.ShloMosaic.ValueIdx

/-- The sum along row n of a [1024, 256] vector, from the zero word: the sum over the column coordinate. (The two
    proofs the operation carries are variables here, typed as the body's own are.) -/
theorem rowSum_apply (v : FVec Ideal S1024x256 .f32) (hφ : FKind.Formats .f32)
    (hacc : (0x00000000#32 : BitVec 32) = 0x00000000#32) (n : Fin 1024) :
    multiReduction .add [1] S1024 v 0x00000000#32 reduces_S1024x256_S1024 hφ hacc (ix1 n) = ∑ c : Fin 256, v (ix2 n c) :=
  Keepdims.rowSum2_apply v 0x00000000#32 reduces_S1024x256_S1024 hφ hacc n

/-- The body's scale literal is 1/1024. -/
theorem scale_eq : (Scalar.ofBits (F := Ideal) .f32 0x3A800000#32) = ((1 / 1024 : ℝ) : EReal) := Literals.ofBits_inv1024

variable (P0 : Vec Ideal S1x1024x256 .f32) (P1 P2 P3 P4 : Vec Ideal S256x256 .bf16) (P5 : Vec Ideal S1x256 .f32)

/-- THE BODY'S RESULT AT (n, g): `subForm` of the loaded block's rows, the four loaded matrices read transposed, and the
    loaded bias row. Each operation is read at an entry: a product into zeros as a sum over its contracted coordinate, the
    row sum as a sum over columns, the reshapes and broadcasts as re-indexings, the roundings as the identity. -/
theorem payload_at (n : Fin 1024) (g : Fin 256) :
    k0_pay2 (F := Ideal) P0 P1 P2 P3 P4 P5 (ix2 n g)
      = subForm (fun n f => P0 (ix3 (0 : Fin 1) n f)) (fun g f => P1 (ix2 f g)) (fun g f => P2 (ix2 f g))
          (fun g f => P3 (ix2 f g)) (fun g => P5 (ix2 (0 : Fin 1) g)) (fun g f => P4 (ix2 f g)) n g := by
  unfold k0_pay2
  simp only [addf_apply, mulf_apply, subf_apply, truncf_apply, broadcast_apply, matmul_proj_apply, matmul_score_apply,
    matmul_att_apply, shapeCast_1ab_ab_apply, shapeCast_self, broadcastTo_1b_ab_apply,
    Keepdims.bcast_col_apply, Keepdims.cast_col_apply, scale_eq]
  rw [rowSum_apply]
  simp only [mulf_apply, truncf_apply, matmul_proj_apply, shapeCast_1ab_ab_apply, shapeCast_self]
  rfl

end Cert.KernelIdeal.Body

end
-- ==== Proof.Blocks.lean ====
/-
  From what each grid point writes back to the whole result array.

  The grid has 16 points, one per block of 1024 rows of the input. Point t fetches block t of x (window 0), the four
  transposed weight matrices and the bias row (windows 1–5, the same whole arrays at every point), runs the body, and
  writes block t of the result (window 6). Before the region the host transposes each weight matrix and views the bias
  as one row, so entry (f, g) of a weight window's array is entry (g, f) of the weight argument, and entry (0, g) of the
  bias window's array is entry g of the bias argument.
  Put through the body's reading, point t writes back block t of `OffDiagonal.result` of the six arguments — here the
  arguments must hold real numbers, for the subtraction of the diagonal term to cancel. The 16 blocks tile the result
  array (entry (b, n, g) is in block b), so after the run the array is `result`.
-/
import proofs.«142790_j18803366822301_1_alg».proof.Proof.Gen.KernelIdeal.Value
import proofs.«142790_j18803366822301_1_alg».proof.Proof.BodyReading
import Idealize.ShloMosaic.Lib.Pipeline.Value
import Idealize.ShloMosaic.Lib.StableHlo.Run
import Idealize.ShloMosaic.Lib.ValueLayout
import Idealize.ShloMosaic.Lib.Tactic

noncomputable section

open Idealize.ShloMosaic Idealize.ShloMosaic.TcCoe Idealize.SL.Sem
open Idealize.ShloMosaic.Pipeline (Dat)

namespace Cert.KernelIdeal.Blocks

open Cert.KernelIdeal Cert.KernelIdeal.Gen Cert.OffDiagonal Idealize.ShloMosaic.ValueIdx

variable (m : (ℓ : Loc nD τ sig) → Buf (Elt Ideal) ℓ) (ρ : Dev nD → PrngReg)

/-! ## The six argument arrays, and the hypothesis that they hold real numbers -/

abbrev argX (c : Dev nD) : S16x1024x256.Idx → EReal := m ((c : Thread nD τ).loc main_arg0)
abbrev argWa (c : Dev nD) : S256x256.Idx → EReal := m ((c : Thread nD τ).loc main_arg1)
abbrev argWb (c : Dev nD) : S256x256.Idx → EReal := m ((c : Thread nD τ).loc main_arg2)
abbrev argWu (c : Dev nD) : S256x256.Idx → EReal := m ((c : Thread nD τ).loc main_arg3)
abbrev argB (c : Dev nD) : S256.Idx → EReal := m ((c : Thread nD τ).loc main_arg4)
abbrev argWr (c : Dev nD) : S256x256.Idx → EReal := m ((c : Thread nD τ).loc main_arg5)

/-- Every entry of every argument array on core `c` is a real number. -/
def RealArgs (c : Dev nD) : Prop :=
  (∀ i, ∃ r : ℝ, argX m c i = (r : EReal)) ∧ (∀ i, ∃ r : ℝ, argWa m c i = (r : EReal))
    ∧ (∀ i, ∃ r : ℝ, argWb m c i = (r : EReal)) ∧ (∀ i, ∃ r : ℝ, argWu m c i = (r : EReal))
    ∧ (∀ i, ∃ r : ℝ, argB m c i = (r : EReal)) ∧ (∀ i, ∃ r : ℝ, argWr m c i = (r : EReal))

/-- The result array both programs are to end with, of core `c`'s arguments. -/
abbrev resultOf (c : Dev nD) : S16x1024x256.Idx → EReal :=
  result (argX m c) (argWa m c) (argWb m c) (argWu m c) (argB m c) (argWr m c)

/-! ## The grid -/

theorem hz3 : (![0, 0, 0] : Fin 3 → Nat) = fun _ => 0 := funext fun a => by fin_cases a <;> rfl
theorem hz2 : (![0, 0] : Fin 2 → Nat) = fun _ => 0 := funext fun a => by fin_cases a <;> rfl

/-- Grid point `t` as a block number of the input. -/
def batch (t : Fin cfg0.N) : Fin 16 := ⟨t.val, by have h := t.isLt; have hN : cfg0.N = 16 := N_0; omega⟩

/-- The printed index maps, decided over the 16 points: the input and the result move one block per point along the
    first axis; the weights and the bias stay at block (0, 0). -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 3) = t.val ∧ win0_6.index t (1 : Fin 3) = 0 ∧ win0_6.index t (2 : Fin 3) = 0 :=
  (by decide +kernel : ∀ t : Fin grid0.N, _)

/-! ## What the region finds in the weight and bias windows' arrays -/

theorem V_waT (c : Dev nD) : @Eq (FVec Ideal S256x256 .bf16) (V m c main_v1)
    (truncf .bf16 (transpose S256x256 [1, 0] (argWa m c) transposes_S256x256_S256x256_1_0) bitsLt_bf16_f32) := by
  dsimp only [Gen.V, Gen.hostOps0]; after_results

theorem V_wbT (c : Dev nD) : @Eq (FVec Ideal S256x256 .bf16) (V m c main_v3)
    (truncf .bf16 (transpose S256x256 [1, 0] (argWb m c) transposes_S256x256_S256x256_1_0) bitsLt_bf16_f32) := by
  dsimp only [Gen.V, Gen.hostOps0]; after_results

theorem V_wuT (c : Dev nD) : @Eq (FVec Ideal S256x256 .bf16) (V m c main_v5)
    (truncf .bf16 (transpose S256x256 [1, 0] (argWu m c) transposes_S256x256_S256x256_1_0) bitsLt_bf16_f32) := by
  dsimp only [Gen.V, Gen.hostOps0]; after_results

theorem V_wrT (c : Dev nD) : @Eq (FVec Ideal S256x256 .bf16) (V m c main_v7)
    (truncf .bf16 (transpose S256x256 [1, 0] (argWr m c) transposes_S256x256_S256x256_1_0) bitsLt_bf16_f32) := by
  dsimp only [Gen.V, Gen.hostOps0]; after_results

theorem V_bRow (c : Dev nD) : (V m c main_v8 : FVec Ideal S1x256 .f32)
    = shapeCast S1x256 (argB m c) shapeCasts_S256_S1x256 := by
  dsimp only [Gen.V, Gen.hostOps0]; after_results; rfl

/-! ## Each window's block at a point, in terms of the arguments -/

/-- Block `t` of the input window: rows (t, ·, ·) of x. -/
theorem xblock_apply (c : Dev nD) (t : Fin cfg0.N) (n : Fin 1024) (f : Fin 256) :
    (iblk m c 0 t : Vec Ideal S1x1024x256 .f32) (ix3 (0 : Fin 1) n f) = argX m c (ix3 (batch t) n f) := by
  obtain ⟨e0, e1, e2, -⟩ := idx_facts t
  unfold iblk
  rw [View.read_apply]
  show V m c main_arg0 _ = _
  rw [V_main_arg0]
  congr 1
  funext a
  apply Fin.ext
  match a with
  | ⟨0, _⟩ => show win0_0.index t (0 : Fin 3) * 1 + 1 * 0 = t.val; omega
  | ⟨1, _⟩ => show win0_0.index t (1 : Fin 3) * 1024 + 1 * n.val = n.val; omega
  | ⟨2, _⟩ => show win0_0.index t (2 : Fin 3) * 256 + 1 * f.val = f.val; omega

/-- The first weight window's block (the whole array): entry (f, g) is the weight's entry (g, f). -/
theorem wablock_apply (c : Dev nD) (t : Fin cfg0.N) (f g : Fin 256) :
    (iblk m c 1 t : Vec Ideal S256x256 .bf16) (ix2 f g) = argWa m c (ix2 g f) := by
  obtain ⟨-, -, -, e0, e1, -⟩ := idx_facts t
  unfold iblk
  rw [View.read_apply]
  have he : ((cfg0.win 1).blk t).view.emb (ix2 f g) = ix2 f g := funext fun a => Fin.ext (by
    match a with
    | ⟨0, _⟩ => show win0_1.index t (0 : Fin 2) * 256 + 1 * f.val = f.val; omega
    | ⟨1, _⟩ => show win0_1.index t (1 : Fin 2) * 256 + 1 * g.val = g.val; omega)
  rw [he]
  show (V m c main_v1 : FVec Ideal S256x256 .bf16) (ix2 f g) = _
  rw [V_waT]
  exact transpose_ix2_apply _ _ f g

/-- The second weight window's block. -/
theorem wbblock_apply (c : Dev nD) (t : Fin cfg0.N) (f g : Fin 256) :
    (iblk m c 2 t : Vec Ideal S256x256 .bf16) (ix2 f g) = argWb m c (ix2 g f) := by
  obtain ⟨-, -, -, -, -, e0, e1, -⟩ := idx_facts t
  unfold iblk
  rw [View.read_apply]
  have he : ((cfg0.win 2).blk t).view.emb (ix2 f g) = ix2 f g := funext fun a => Fin.ext (by
    match a with
    | ⟨0, _⟩ => show win0_2.index t (0 : Fin 2) * 256 + 1 * f.val = f.val; omega
    | ⟨1, _⟩ => show win0_2.index t (1 : Fin 2) * 256 + 1 * g.val = g.val; omega)
  rw [he]
  show (V m c main_v3 : FVec Ideal S256x256 .bf16) (ix2 f g) = _
  rw [V_wbT]
  exact transpose_ix2_apply _ _ f g

/-- The third weight window's block. -/
theorem wublock_apply (c : Dev nD) (t : Fin cfg0.N) (f g : Fin 256) :
    (iblk m c 3 t : Vec Ideal S256x256 .bf16) (ix2 f g) = argWu m c (ix2 g f) := by
  obtain ⟨-, -, -, -, -, -, -, e0, e1, -⟩ := idx_facts t
  unfold iblk
  rw [View.read_apply]
  have he : ((cfg0.win 3).blk t).view.emb (ix2 f g) = ix2 f g := funext fun a => Fin.ext (by
    match a with
    | ⟨0, _⟩ => show win0_3.index t (0 : Fin 2) * 256 + 1 * f.val = f.val; omega
    | ⟨1, _⟩ => show win0_3.index t (1 : Fin 2) * 256 + 1 * g.val = g.val; omega)
  rw [he]
  show (V m c main_v5 : FVec Ideal S256x256 .bf16) (ix2 f g) = _
  rw [V_wuT]
  exact transpose_ix2_apply _ _ f g

/-- The bias window's block: its one row is the bias. -/
theorem bblock_apply (c : Dev nD) (t : Fin cfg0.N) (g : Fin 256) :
    (iblk m c 4 t : Vec Ideal S1x256 .f32) (ix2 (0 : Fin 1) g) = argB m c (ix1 g) := by
  obtain ⟨-, -, -, -, -, -, -, -, -, e0, e1, -⟩ := idx_facts t
  unfold iblk
  rw [View.read_apply]
  have he : ((cfg0.win 4).blk t).view.emb (ix2 (0 : Fin 1) g) = ix2 (0 : Fin 1) g := funext fun a => Fin.ext (by
    match a with
    | ⟨0, _⟩ => show win0_4.index t (0 : Fin 2) * 1 + 1 * 0 = 0; omega
    | ⟨1, _⟩ => show win0_4.index t (1 : Fin 2) * 256 + 1 * g.val = g.val; omega)
  rw [he]
  show (V m c main_v8 : FVec Ideal S1x256 .f32) (ix2 (0 : Fin 1) g) = _
  rw [V_bRow]
  exact shapeCast_a_1a_apply _ _ 0 g

/-- The last weight window's block. -/
theorem wrblock_apply (c : Dev nD) (t : Fin cfg0.N) (f g : Fin 256) :
    (iblk m c 5 t : Vec Ideal S256x256 .bf16) (ix2 f g) = argWr m c (ix2 g f) := by
  obtain ⟨-, -, -, -, -, -, -, -, -, -, -, e0, e1, -⟩ := idx_facts t
  unfold iblk
  rw [View.read_apply]
  have he : ((cfg0.win 5).blk t).view.emb (ix2 f g) = ix2 f g := funext fun a => Fin.ext (by
    match a with
    | ⟨0, _⟩ => show win0_5.index t (0 : Fin 2) * 256 + 1 * f.val = f.val; omega
    | ⟨1, _⟩ => show win0_5.index t (1 : Fin 2) * 256 + 1 * g.val = g.val; omega)
  rw [he]
  show (V m c main_v7 : FVec Ideal S256x256 .bf16) (ix2 f g) = _
  rw [V_wrT]
  exact transpose_ix2_apply _ _ f g

/-- Entry (0, n, g) of the result window's block at point `t` sits at (t, n, g) of the result array. -/
theorem oblock_emb (t : Fin cfg0.N) (u : Fin 1) (n : Fin 1024) (g : Fin 256) :
    ((cfg0.win 6).blk t).view.emb (ix3 u n g) = ix3 (batch t) n g := by
  obtain ⟨-, -, -, -, -, -, -, -, -, -, -, -, -, e0, e1, e2⟩ := idx_facts t
  have hu : u.val = 0 := by omega
  funext a
  apply Fin.ext
  match a with
  | ⟨0, _⟩ => show win0_6.index t (0 : Fin 3) * 1 + 1 * u.val = t.val; omega
  | ⟨1, _⟩ => show win0_6.index t (1 : Fin 3) * 1024 + 1 * n.val = n.val; omega
  | ⟨2, _⟩ => show win0_6.index t (2 : Fin 3) * 256 + 1 * g.val = g.val; omega

/-! ## What a point writes back, the cover, the array after the run -/

/-- Entry (u, n, g) of what the body leaves at point `t` is entry (t, n, g) of `result` of the arguments. -/
theorem out_apply (c : Dev nD) (hr : RealArgs m c) (t : Fin cfg0.N) (u : Fin 1) (n : Fin 1024) (g : Fin 256) :
    out0_6 (iblk m c 0 t) (iblk m c 1 t) (iblk m c 2 t) (iblk m c 3 t) (iblk m c 4 t) (iblk m c 5 t) (ix3 u n g)
      = resultOf m c (ix3 (batch t) n g) := by
  obtain ⟨hx, hwa, hwb, hwu, hb, -⟩ := hr
  unfold out0_6
  rw [Value.canon6_eq]
  have hix : Value.ix6_0 (ix3 u n g) = ix2 n g :=
    funext fun a => Fin.ext (by match a with | ⟨0, _⟩ => rfl | ⟨1, _⟩ => rfl)
  show k0_pay2 (F := Ideal) _ _ _ _ _ _ (Value.ix6_0 (ix3 u n g)) = _
  rw [hix, Body.payload_at]
  show _ = maskForm (rowsOf (argX m c) (batch t)) (matOf (argWa m c)) (matOf (argWb m c)) (matOf (argWu m c))
    (vecOf (argB m c)) (matOf (argWr m c)) n g
  have h0 : (fun (n : Fin 1024) (f : Fin 256) => View.ld (iblk m c 0 t) r0_0 (ix3 (0 : Fin 1) n f)) = rowsOf (argX m c) (batch t) := by
    funext n f; rw [View.ld_unit_zero (S := S1x1024x256) hz3]; exact xblock_apply m c t n f
  have h1 : (fun (g f : Fin 256) => View.ld (iblk m c 1 t) r0_1 (ix2 f g)) = matOf (argWa m c) := by
    funext g f; rw [View.ld_unit_zero (S := S256x256) hz2]; exact wablock_apply m c t f g
  have h2 : (fun (g f : Fin 256) => View.ld (iblk m c 2 t) r0_1 (ix2 f g)) = matOf (argWb m c) := by
    funext g f; rw [View.ld_unit_zero (S := S256x256) hz2]; exact wbblock_apply m c t f g
  have h3 : (fun (g f : Fin 256) => View.ld (iblk m c 3 t) r0_1 (ix2 f g)) = matOf (argWu m c) := by
    funext g f; rw [View.ld_unit_zero (S := S256x256) hz2]; exact wublock_apply m c t f g
  have h4 : (fun (g : Fin 256) => View.ld (iblk m c 4 t) r0_2 (ix2 (0 : Fin 1) g)) = vecOf (argB m c) := by
    funext g; rw [View.ld_unit_zero (S := S1x256) hz2]; exact bblock_apply m c t g
  have h5 : (fun (g f : Fin 256) => View.ld (iblk m c 5 t) r0_1 (ix2 f g)) = matOf (argWr m c) := by
    funext g f; rw [View.ld_unit_zero (S := S256x256) hz2]; exact wrblock_apply m c t f g
  rw [h0, h1, h2, h3, h4, h5]
  exact congrFun (congrFun (subForm_eq_maskForm _ _ _ _ _ _ (fun n f => hx _) (fun g f => hwa _) (fun g f => hwb _)
    (fun g f => hwu _) (fun g => hb _)) n) g

/-- WHAT POINT `t` WRITES BACK is block `t` of `result` of the arguments. -/
theorem flushed_eq (c : Dev nD) (hr : RealArgs m c) (t : Fin cfg0.N) :
    (dats m 0 c).flushed 6 t = ((cfg0.win 6).blk t).view.read (Elt Ideal) (resultOf m c) := by
  rw [Value.flushed6]
  funext y
  obtain ⟨u, n, g, rfl⟩ : ∃ (u : Fin 1) (n : Fin 1024) (g : Fin 256), y = ix3 u n g := ⟨y 0, y 1, y 2, eq_ix3 y⟩
  show out0_6 (iblk m c 0 t) (iblk m c 1 t) (iblk m c 2 t) (iblk m c 3 t) (iblk m c 4 t) (iblk m c 5 t) (ix3 u n g)
    = resultOf m c (((cfg0.win 6).blk t).view.emb (ix3 u n g))
  rw [oblock_emb]
  exact out_apply m c hr t u n g

/-- An index of the result array is in point `t`'s block iff each coordinate is in the block's range on its axis. -/
theorem mem_blk (t : Fin cfg0.N) (i : S16x1024x256.Idx) :
    i ∈ ((cfg0.win 6).blk t).view.set ↔ ∀ a : Fin 3, win0_6.index t a * S1x1024x256.size a ≤ (i a).val ∧ (i a).val < win0_6.index t a * S1x1024x256.size a + S1x1024x256.size a := by
  show i ∈ ((View.whole main_v9).slice (win0_6.rect t)).set ↔ _
  rw [View.set_slice_whole, Rect.mem_set_unit]
  exact Iff.rfl

/-- Every entry (b, n, g) of the result array is in the block of point b, which writes back. -/
theorem cover (i : S16x1024x256.Idx) : ∃ t : Fin cfg0.N, (cfg0.win 6).flush t = true ∧ i ∈ ((cfg0.win 6).blk t).view.set := by
  have hN : cfg0.N = 16 := N_0
  have hi0 : (i 0).val < 16 := (i 0).isLt
  have hi1 : (i 1).val < 1024 := (i 1).isLt
  have hi2 : (i 2).val < 256 := (i 2).isLt
  refine ⟨⟨(i 0).val, by omega⟩, flush0_6 _, ?_⟩
  obtain ⟨-, -, -, -, -, -, -, -, -, -, -, -, -, e0, e1, e2⟩ := idx_facts ⟨(i 0).val, by omega⟩
  rw [mem_blk]
  intro a
  match a with
  | ⟨0, _⟩ => show win0_6.index _ (0 : Fin 3) * 1 ≤ (i 0).val ∧ (i 0).val < win0_6.index _ (0 : Fin 3) * 1 + 1; rw [e0]; show (i 0).val * 1 ≤ (i 0).val ∧ (i 0).val < (i 0).val * 1 + 1; omega
  | ⟨1, _⟩ => show win0_6.index _ (1 : Fin 3) * 1024 ≤ (i 1).val ∧ (i 1).val < win0_6.index _ (1 : Fin 3) * 1024 + 1024; rw [e1]; omega
  | ⟨2, _⟩ => show win0_6.index _ (2 : Fin 3) * 256 ≤ (i 2).val ∧ (i 2).val < win0_6.index _ (2 : Fin 3) * 256 + 256; rw [e2]; omega

/-- THE RESULT ARRAY after the run is `result` of the arguments. -/
theorem final (c : Dev nD) (hr : RealArgs m c) : (dats m 0 c).arrAt 6 cfg0.N = resultOf m c :=
  (dats m 0 c).arrAt_eq_of_cover 6 (resultOf m c) (fun t _ => flushed_eq m c hr t) cover

/-- THE RUN, READ: every weakly fair execution ends with the result array at `result` of the arguments and the
    arguments unchanged — when the arguments hold real numbers. -/
theorem run (hr : ∀ c : Dev nD, RealArgs m c) :
    θ_run defs (onTc (τ := τ) (main (F := Ideal))) ⟨m, fun _ => 0, ρ⟩ fun r => ∀ c : Dev nD,
      r.2.mem ((c : Thread nD τ).loc main_v9) = resultOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c (hr c)), (h c).2⟩) (Value.run_blocks m ρ)

end Cert.KernelIdeal.Blocks

end
-- ==== Proof.ReferenceReading.lean ====
/-
  The reference's result, read entry by entry, is `OffDiagonal.result`.

  The reference is a chain of whole-array operations: three contractions of x with the weight matrices (the third with
  the bias added), the batched contraction of the first two into the [16, 1024, 1024] scores, a mask built from two
  iotas (1 minus the indicator of row = column) multiplied in, the batched contraction with the third, a division by
  1024, a last contraction with the fourth weight matrix, and the input added back. Each operation is read at an entry
  given by its coordinates; a contraction becomes a sum over its one contracted coordinate, and the mask at (i, j)
  becomes 0 if i = j and 1 otherwise, because two row numbers below 1024 are equal exactly when their 32-bit words are.
-/
import proofs.«142790_j18803366822301_1_alg».proof.Proof.Gen.ReferenceIdeal.Read
import proofs.«142790_j18803366822301_1_alg».proof.Proof.Result
import proofs.«142790_j18803366822301_1_alg».proof.Proof.Literals

noncomputable section

open scoped BigOperators

namespace Cert.ReferenceIdeal.Reading

open Cert.ReferenceIdeal Cert.ReferenceIdeal.Read Cert.OffDiagonal Idealize.ShloMosaic Idealize.ShloMosaic.ValueIdx

/-- Two index functions of three coordinates agree when their coordinates do. -/
local macro "coords3" : tactic =>
  `(tactic| exact funext fun a => Fin.ext (by match a with | ⟨0, _⟩ => rfl | ⟨1, _⟩ => rfl | ⟨2, _⟩ => rfl))
local macro "coords2" : tactic =>
  `(tactic| exact funext fun a => Fin.ext (by match a with | ⟨0, _⟩ => rfl | ⟨1, _⟩ => rfl))
local macro "coords1" : tactic =>
  `(tactic| exact funext fun a => Fin.ext (by match a with | ⟨0, _⟩ => rfl))

variable (x0 : (⟨S16x1024x256, .f32⟩ : BufTy).Contents (Elt Ideal))
  (x1 x2 x3 : (⟨S256x256, .f32⟩ : BufTy).Contents (Elt Ideal))
  (x4 : (⟨S256, .f32⟩ : BufTy).Contents (Elt Ideal))
  (x5 : (⟨S256x256, .f32⟩ : BufTy).Contents (Elt Ideal))

/-! ## The three projections -/

/-- α: block b's row n against row g of the first weight matrix. -/
theorem alpha_at (b : Fin 16) (n : Fin 1024) (g : Fin 256) :
    val_main_v0 (F := Ideal) x0 x1 (ix3 b n g) = proj (rowsOf x0 b) (matOf x1) n g := by
  rw [val_main_v0_apply]
  have hl : ∀ k : Fin 256, lidx_main_v0 (ix3 b n g) k = ix3 b n k := fun k => by coords3
  have hr : ∀ k : Fin 256, ridx_main_v0 (ix3 b n g) k = ix2 g k := fun k => by coords2
  simp only [hl, hr]
  rfl

/-- β: the same with the second weight matrix. -/
theorem beta_at (b : Fin 16) (n : Fin 1024) (g : Fin 256) :
    val_main_v1 (F := Ideal) x0 x2 (ix3 b n g) = proj (rowsOf x0 b) (matOf x2) n g := by
  rw [val_main_v1_apply]
  have hl : ∀ k : Fin 256, lidx_main_v1 (ix3 b n g) k = ix3 b n k := fun k => by coords3
  have hr : ∀ k : Fin 256, ridx_main_v1 (ix3 b n g) k = ix2 g k := fun k => by coords2
  simp only [hl, hr]
  rfl

/-- The unary term: the third projection with the bias, broadcast over blocks and rows, added. -/
theorem unary_at (b : Fin 16) (n : Fin 1024) (g : Fin 256) :
    val_main_v5 (F := Ideal) x0 x3 x4 (ix3 b n g) = unary (rowsOf x0 b) (matOf x3) (vecOf x4) n g := by
  rw [val_main_v5_apply, val_main_v2_apply, val_main_v4_apply, val_main_v3_apply]
  have hl : ∀ k : Fin 256, lidx_main_v2 (ix3 b n g) k = ix3 b n k := fun k => by coords3
  have hr : ∀ k : Fin 256, ridx_main_v2 (ix3 b n g) k = ix2 g k := fun k => by coords2
  have hb : idx_main_v3 (idx_main_v4 (ix3 b n g)) = ix1 g := by coords1
  simp only [hl, hr, hb]
  rfl

/-! ## The scores and the mask -/

/-- The score of the pair (i, j) of block b: the inner product of α's row i with β's row j. -/
theorem score_at (b : Fin 16) (i j : Fin 1024) :
    val_main_v6 (F := Ideal) x0 x1 x2 (ix3 b i j)
      = ∑ f : Fin 256, proj (rowsOf x0 b) (matOf x1) i f * proj (rowsOf x0 b) (matOf x2) j f := by
  rw [val_main_v6_apply]
  have hl : ∀ k : Fin 256, lidx_main_v6 (ix3 b i j) k = ix3 b i k := fun k => by coords3
  have hr : ∀ k : Fin 256, ridx_main_v6 (ix3 b i j) k = ix3 b j k := fun k => by coords3
  simp only [hl, hr, alpha_at, beta_at]

/-- Row numbers below 1024 are equal exactly when their 32-bit words are (adding the zero word changes nothing). -/
theorem word_eq_iff (i j : Fin 1024) :
    (IntOp.addi (BitVec.ofNat 32 i.val) 0#32 == BitVec.ofNat 32 j.val) = decide (i = j) := by
  have hi := i.isLt
  have hj := j.isLt
  unfold IntOp.addi
  rw [BitVec.add_zero]
  by_cases h : i = j
  · subst h; simp
  · have hne : BitVec.ofNat 32 i.val ≠ BitVec.ofNat 32 j.val := by
      intro e
      have e' := congrArg BitVec.toNat e
      simp only [BitVec.toNat_ofNat] at e'
      rw [Nat.mod_eq_of_lt (by omega), Nat.mod_eq_of_lt (by omega)] at e'
      exact h (Fin.ext e')
    simp [hne, h]

/-- The mask at (i, j), the same in every block: 1 minus the indicator of i = j. -/
theorem mask_at (b : Fin 16) (i j : Fin 1024) : val_main_v16 (F := Ideal) (ix3 b i j) = offDiag i j := by
  rw [val_main_v16_apply, val_main_v15_apply, val_main_v14_apply, val_main_v13_apply, val_main_cst_apply,
    val_main_v12_apply, val_main_v11_apply, val_main_v10_apply, val_main_v7_apply, val_main_v9_apply,
    val_main_c_apply, val_main_v8_apply]
  show Ideal.ofBits .f32 0x3F800000#32
      - (((IntOp.cmpi .eq (IntOp.addi (BitVec.ofNat 32 i.val) 0#32) (BitVec.ofNat 32 j.val)).toNat : ℝ) : EReal)
    = offDiag i j
  rw [Literals.ofBits_one]
  unfold IntOp.cmpi offDiag
  show (1 : EReal) - (((BitVec.ofBool (IntOp.addi (BitVec.ofNat 32 i.val) 0#32 == BitVec.ofNat 32 j.val)).toNat : ℝ) : EReal) = _
  rw [word_eq_iff]
  by_cases h : i = j
  · rw [if_pos h, decide_eq_true h]
    show ((1 : ℝ) : EReal) - (((1 : ℕ) : ℝ) : EReal) = ((0 : ℝ) : EReal)
    rw [← EReal.coe_sub]
    norm_num
  · rw [if_neg h, decide_eq_false h]
    simp

/-- The masked score. -/
theorem masked_at (b : Fin 16) (i j : Fin 1024) :
    val_main_v17 (F := Ideal) x0 x1 x2 (ix3 b i j)
      = (∑ f : Fin 256, proj (rowsOf x0 b) (matOf x1) i f * proj (rowsOf x0 b) (matOf x2) j f) * offDiag i j := by
  rw [val_main_v17_apply, score_at, mask_at]
  rfl

/-! ## The attention, the last projection, the residual -/

/-- The masked scores contracted with the unary term and divided by 1024: `attMask` of the block's projections. -/
theorem att_at (b : Fin 16) (i : Fin 1024) (g : Fin 256) :
    val_main_v20 (F := Ideal) x0 x1 x2 x3 x4 (ix3 b i g)
      = attMask (proj (rowsOf x0 b) (matOf x1)) (proj (rowsOf x0 b) (matOf x2)) (unary (rowsOf x0 b) (matOf x3) (vecOf x4)) i g := by
  rw [val_main_v20_apply, val_main_v18_apply, val_main_v19_apply, val_main_cst_0_apply]
  have hl : ∀ k : Fin 1024, lidx_main_v18 (ix3 b i g) k = ix3 b i k := fun k => by coords3
  have hr : ∀ k : Fin 1024, ridx_main_v18 (ix3 b i g) k = ix3 b k g := fun k => by coords3
  simp only [hl, hr, masked_at, unary_at]
  show Ideal.div _ (Ideal.ofBits .f32 0x44800000#32) = _
  rw [Literals.ofBits_1024]
  rfl

/-- THE REFERENCE IS THE RESULT, entry by entry. -/
theorem reference_eq_result : val_main_v22 (F := Ideal) x0 x1 x2 x3 x4 x5 = result x0 x1 x2 x3 x4 x5 := by
  funext i
  obtain ⟨b, n, g, rfl⟩ : ∃ (b : Fin 16) (n : Fin 1024) (g : Fin 256), i = ix3 b n g := ⟨i 0, i 1, i 2, eq_ix3 i⟩
  rw [result_ix3, val_main_v22_apply, val_main_v21_apply]
  have hl : ∀ k : Fin 256, lidx_main_v21 (ix3 b n g) k = ix3 b n k := fun k => by coords3
  have hr : ∀ k : Fin 256, ridx_main_v21 (ix3 b n g) k = ix2 g k := fun k => by coords2
  simp only [hl, hr, att_at]
  rfl

end Cert.ReferenceIdeal.Reading

end
-- ==== Proof.Finite.lean ====
/-
  The precondition, read: every entry of every argument array is a real number.

  The precondition is a conjunction of six tests, one per argument: every entry's absolute value is below +∞. A
  conjunction of bits is 1 only if both are; an "all" over an array is 1 only if the tested bit is 1 at every entry; and
  an extended real whose absolute value is below +∞ is neither +∞ nor −∞, so it is (the coercion of) a real number.
-/
import proofs.«142790_j18803366822301_1_alg».proof.Proof.Gen.Pre_finite_inputs
import Idealize.ShloMosaic.PureOps.Ideal
import Idealize.ShloMosaic.Lib.ReduceAll
import Idealize.ShloMosaic.Lib.Pipeline.Value
import Idealize.ShloMosaic.Lib.ValueIdx
import Idealize.ShloMosaic.Lib.Affine

noncomputable section

namespace Cert.Pre_finite_inputs.Reading

open Cert.Pre_finite_inputs Idealize.ShloMosaic Idealize.ShloMosaic.ValueIdx

/-- The shape with no axes has one index. -/
instance : Subsingleton S_.Idx := ⟨fun _ _ => funext fun d => d.elim0⟩

/-- The pattern 0x7F800000 denotes +∞. -/
theorem ofBits_inf : Ideal.ofBits .f32 0x7F800000#32 = ⊤ := by
  simp [Ideal.ofBits, Ideal.ieee]

/-- An extended real whose absolute value compares below +∞ is a real number. -/
theorem real_of_abs_lt (a : EReal) (h : Ideal.cmp .olt (max a (-a)) (Ideal.ofBits .f32 0x7F800000#32) = 1#1) :
    ∃ r : ℝ, a = (r : EReal) := by
  rw [ofBits_inf] at h
  unfold Ideal.cmp at h
  induction a using EReal.rec with
  | bot => simp at h
  | coe r => exact ⟨r, rfl⟩
  | top => simp at h

/-- One argument's test: if "every entry's absolute value is below +∞" came out 1, every entry is real. -/
theorem all_real {s : Shape} {axes : List (Fin s.rank)} (x : FVec Ideal s .f32) (hr : s.ReducesTo axes S_)
    (hb : S_.BroadcastsInDim s (![] : Fin 0 → Fin s.rank)) (hu : 0 < S_.numel)
    (e : Host.reduce IntOp.andi
          (cmpf .olt (Host.absf x) (broadcastInDim s ![] hb (constant (F := Ideal) S_ .f32 0x7F800000#32)))
          (constantI S_ 1 1#1) hr hu ix0 = 1#1) (i : s.Idx) : ∃ r : ℝ, x i = (r : EReal) := by
  have hi := Host.reduce_andi_all _ _ hr hu ix0 e i
  refine real_of_abs_lt (x i) ?_
  rw [← hi, cmpf_apply, broadcastInDim_apply _ hb _ i ix0 (fun a => a.elim0)]
  rfl

/-- THE PRECONDITION, READ: all six argument arrays hold real numbers. -/
theorem real_of_pre (a0 : FVec Ideal S16x1024x256 .f32) (a1 a2 a3 : FVec Ideal S256x256 .f32) (a4 : FVec Ideal S256 .f32)
    (a5 : FVec Ideal S256x256 .f32) (h : fn (F := Ideal) a0 a1 a2 a3 a4 a5 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) ∧ (∀ i, ∃ r : ℝ, a5 i = (r : EReal)) := by
  have h0 := congrFun h ix0
  dsimp only [fn, fn_part1] at h0
  obtain ⟨h01234, e5⟩ := IntOp.andi_eq_one.mp h0
  obtain ⟨h0123, e4⟩ := IntOp.andi_eq_one.mp h01234
  obtain ⟨h012, e3⟩ := IntOp.andi_eq_one.mp h0123
  obtain ⟨h01, e2⟩ := IntOp.andi_eq_one.mp h012
  obtain ⟨e0, e1⟩ := IntOp.andi_eq_one.mp h01
  exact ⟨all_real a0 _ _ _ e0, all_real a1 _ _ _ e1, all_real a2 _ _ _ e2, all_real a3 _ _ _ e3, all_real a4 _ _ _ e4,
    all_real a5 _ _ _ e5⟩

end Cert.Pre_finite_inputs.Reading

end
-- ==== Proof.lean ====
/-
  Attention over all pairs of 1024 rows with the diagonal pair left out: a kernel that never forms the mask against a
  reference that does.

  For each of 16 blocks of the input, both programs project the block's rows three ways (α, β, and u with a bias), score
  every pair of rows by the inner product of α's row with β's row, contract the scores — except each row's score with
  itself — with u, scale by 1/1024, project once more, and add the input back. The reference multiplies the score
  matrix by a mask that is 0 on the diagonal and 1 off it and divides by 1024. The kernel contracts all the scores,
  subtracts the diagonal term (the row's own score, computed directly as ∑_f α_f β_f, times the row's u) and multiplies
  by the literal 2⁻¹⁰, which is exactly 1/1024.

  At the exact values these agree whenever the inputs are real numbers: a sum with one term zeroed is the whole sum minus
  that term — a cancellation that fails at an infinity, which is why the precondition (every input finite) is used.
  Proof/DiagonalLaw.lean has the law; Proof/Result.lean the common result as one function of the six arguments;
  Proof/ReferenceReading.lean reads the reference entry by entry as that function; Proof/BodyReading.lean reads the
  kernel's body at an entry (over Proof/Contractions.lean, its three shapes of matrix product, and Proof/LibKeepdims.lean,
  the row sum kept as a column); Proof/Blocks.lean goes from what each of the 16 grid points writes back to the whole
  result array; Proof/Finite.lean reads the precondition. The kernel has no sanctioned rewrite, so nothing is owed for
  its idealization; the three programs' runs, termination and unchanged arguments are the generated frame certificates.
-/
import proofs.«142790_j18803366822301_1_alg».proof.Defs
import proofs.«142790_j18803366822301_1_alg».proof.Proof.Gen.Kernel
import proofs.«142790_j18803366822301_1_alg».proof.Proof.Gen.Kernel.Skeleton
import proofs.«142790_j18803366822301_1_alg».proof.Proof.Gen.Kernel.Launch
import proofs.«142790_j18803366822301_1_alg».proof.Proof.Gen.Kernel.Points
import proofs.«142790_j18803366822301_1_alg».proof.Proof.Gen.Kernel.Frame
import proofs.«142790_j18803366822301_1_alg».proof.Proof.Gen.KernelIdeal
import proofs.«142790_j18803366822301_1_alg».proof.Proof.Gen.KernelIdeal.Skeleton
import proofs.«142790_j18803366822301_1_alg».proof.Proof.Gen.KernelIdeal.Launch
import proofs.«142790_j18803366822301_1_alg».proof.Proof.Gen.KernelIdeal.Points
import proofs.«142790_j18803366822301_1_alg».proof.Proof.Gen.KernelIdeal.Frame
import proofs.«142790_j18803366822301_1_alg».proof.Proof.Gen.ReferenceIdeal
import proofs.«142790_j18803366822301_1_alg».proof.Proof.Gen.Pre_finite_inputs
import proofs.«142790_j18803366822301_1_alg».proof.Proof.Gen.KernelIdeal.Value
import proofs.«142790_j18803366822301_1_alg».proof.Proof.Gen.ReferenceIdeal.Run
import proofs.«142790_j18803366822301_1_alg».proof.Proof.Gen.ReferenceIdeal.Read
import Idealize.ShloMosaic.Adequacy
import Idealize.ShloMosaic.Init
import proofs.«142790_j18803366822301_1_alg».proof.Proof.Blocks
import proofs.«142790_j18803366822301_1_alg».proof.Proof.ReferenceReading
import proofs.«142790_j18803366822301_1_alg».proof.Proof.Finite

noncomputable section

namespace Cert.Proof

open Idealize.ShloMosaic Idealize.SL.Sem

/-- The kernel as printed runs, and leaves its arguments as they were. -/
theorem frame_kernel : Cert.frame_Kernel := fun m ρ _ => Cert.Kernel.Gen.frame m ρ

/-- So does the kernel read at the exact values. -/
theorem frame_kernelIdeal : Cert.frame_KernelIdeal := fun m ρ _ => Cert.KernelIdeal.Gen.frame m ρ

/-- So does the reference: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The kernel's exact reading is its own text: no operation was rewritten. -/
theorem preserves : Cert.preserves_Kernel_KernelIdeal := trivial

/-- Under the precondition every argument array holds real numbers, on every core. -/
theorem real_args (m : (ℓ : Loc Cert.KernelIdeal.nD Cert.KernelIdeal.τ Cert.KernelIdeal.sig) → Buf (Elt Ideal) ℓ)
    (hpre : Cert.Pre_KernelIdeal m) (c : Dev Cert.KernelIdeal.nD) : Cert.KernelIdeal.Blocks.RealArgs m c :=
  Cert.Pre_finite_inputs.Reading.real_of_pre _ _ _ _ _ _ (hpre c)

/-- From arguments that agree and are finite, the kernel's result array ends at `result` of the arguments (the 16 blocks
    written back, each the body's reading of its block) and the reference's at the same function (its operations read
    entry by entry): equal element by element. -/
theorem algebraic : Cert.algebraic_KernelIdeal_ReferenceIdeal := by
  intro m ρ m' ρ' hpre hagree
  refine ⟨fun c => Cert.KernelIdeal.Blocks.resultOf m c, Cert.KernelIdeal.Blocks.run m ρ (real_args m hpre), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, Cert.ReferenceIdeal.Reading.reference_eq_result,
    (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
